-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S512x64 : Shape := ⟨2, ![512, 64]⟩
abbrev S512 : Shape := ⟨1, ![512]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x4096x64 .f32) (main_arg1 : FVec F S512x64 .f32) (main_arg2 : FVec F S512 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x4096x64 : Shape := ⟨3, ![8, 4096, 64]⟩
abbrev S512x64 : Shape := ⟨2, ![512, 64]⟩
abbrev S512 : Shape := ⟨1, ![512]⟩
abbrev S32768x64 : Shape := ⟨2, ![32768, 64]⟩
abbrev S_ : Shape := ⟨0, ![]⟩
abbrev S1x512 : Shape := ⟨2, ![1, 512]⟩
abbrev S32768x512 : Shape := ⟨2, ![32768, 512]⟩
abbrev S2048x64 : Shape := ⟨2, ![2048, 64]⟩
abbrev S2048x512 : Shape := ⟨2, ![2048, 512]⟩
abbrev S2048 : Shape := ⟨1, ![2048]⟩
abbrev S2048x1 : Shape := ⟨2, ![2048, 1]⟩
abbrev S8x4096x512 : Shape := ⟨3, ![8, 4096, 512]⟩

abbrev nBuf : Space → Nat
  | .hbm => 20
  | .vmem => 8
  | .smem => 0
  | _ => 0

abbrev bufTy : (tb : Table) → Fin (tcTables nBuf tb) → BufTy
  | .hbm, ⟨0, _⟩ => ⟨S8x4096x64, .f32⟩
  | .hbm, ⟨1, _⟩ => ⟨S512x64, .f32⟩
  | .hbm, ⟨2, _⟩ => ⟨S512, .f32⟩
  | .hbm, ⟨3, _⟩ => ⟨S32768x64, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S32768x512, .f32⟩
  | .hbm, ⟨19, _⟩ => ⟨S8x4096x512, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x64_S32768x64 : S8x4096x64.ShapeCasts S32768x64
  bcast_S_S512 : S_.BroadcastsInDim S512 (![] : Fin 0 → Fin S512.rank)
  reducesTo_S512x64_S512_d1 : S512x64.ReducesTo [1] S512
  h_S_ : 0 < S_.numel
  shapeCasts_S512_S1x512 : S512.ShapeCasts S1x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x64_S2048 : S2048x64.Reduces [1] S2048
  shapeCasts_S2048_S2048x1 : S2048.ShapeCasts S2048x1
  bitsLt_bf16_f32 : FTy.bits .bf16 < FTy.bits .f32
  broadcasts_S1x512_S2048x512 : S1x512.Broadcasts S2048x512
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  shapeCasts_S32768x512_S8x4096x512 : S32768x512.ShapeCasts S8x4096x512
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S32768x64.size a
  hwx0_0 : ∀ i : grid0.Coords, EltTy.bits .f32 = 32 ∨ (Rect.block (s := S32768x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S32768x512.size a
  hwx0_5 : ∀ i : grid0.Coords, EltTy.bits .f32 = 32 ∨ (Rect.block (s := S32768x512) S2048x512.size (cc0_transform_5 i) (hinb0_5 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S512x64 : Shape := ⟨2, ![512, 64]⟩
abbrev S512 : Shape := ⟨1, ![512]⟩
abbrev S_ : Shape := ⟨0, ![]⟩
abbrev S8x4096 : Shape := ⟨2, ![8, 4096]⟩
abbrev S8x4096x512 : Shape := ⟨3, ![8, 4096, 512]⟩
abbrev S8x4096x1 : Shape := ⟨3, ![8, 4096, 1]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S512x64, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x4096x64, .f32⟩
  | .hbm, ⟨8, _⟩ => ⟨S_, .f32⟩
  | .hbm, ⟨9, _⟩ => ⟨S8x4096, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S8x4096x512, .f32⟩
  | .hbm, ⟨14, _⟩ => ⟨S8x4096x1, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S_, .f32⟩
  | .hbm, ⟨24, _⟩ => ⟨S8x4096x512, .f32⟩
  | .hbm, ⟨25, _⟩ => ⟨S8x4096x512, .f32⟩
  | .hbm, ⟨26, _⟩ => ⟨S1x1x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S512 : S_.BroadcastsInDim S512 (![] : Fin 0 → Fin S512.rank)
  reducesTo_S8x4096x64_S8x4096_d2 : S8x4096x64.ReducesTo [2] S8x4096
  h_S_ : 0 < S_.numel
  reducesTo_S512x64_S512_d1 : S512x64.ReducesTo [1] S512
  bcast_S8x4096_S8x4096x1_0_1 : S8x4096.BroadcastsInDim S8x4096x1 (![0, 1] : Fin 2 → Fin S8x4096x1.rank)
  bcast_S_S8x4096x512 : S_.BroadcastsInDim S8x4096x512 (![] : Fin 0 → Fin S8x4096x512.rank)
  bcast_S8x4096x1_S8x4096x512_0_1_2 : S8x4096x1.BroadcastsInDim S8x4096x512 (![0, 1, 2] : Fin 3 → Fin S8x4096x512.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x64_S512x64_S8x4096x512_2_1_01_0_n_n_wf : DotDims.WF S8x4096x64 S512x64 S8x4096x512 [2] [1] [0, 1] [0] [] []

variable [Facts₀]

def dot_S8x4096x64_S512x64_S8x4096x512_2_1_01_0_n_n : DotDims S8x4096x64 S512x64 S8x4096x512 where
  lhsContracting := [2]
  rhsContracting := [1]
  lhsNonContracting := [0, 1]
  rhsNonContracting := [0]
  lhsBatch := []
  rhsBatch := []
  wf := dot_S8x4096x64_S512x64_S8x4096x512_2_1_01_0_n_n_wf

class Facts : Prop extends Facts₀ where

variable [Facts]
-- ==== Proof.Consts.lean ====
/- The float literals the two programs spell, as the extended reals their patterns denote: -2, 2, -1/2, and the
   positive infinity the finiteness test compares against. Stated once, so that no other module unfolds the
   pattern reader. -/
import Idealize.ShloMosaic.PureOps.Ideal

noncomputable section

namespace Cert.Consts

open Idealize.ShloMosaic

/-- The pattern of `-2.0` denotes the real `-2`. -/
theorem ofBits_neg_two : Ideal.ofBits .f32 0xC0000000#32 = ((-2 : ℝ) : EReal) := by
  simp [Ideal.ofBits, Ideal.ieee, -EReal.coe_mul, -EReal.coe_neg]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul, -EReal.coe_neg]; norm_num

/-- The pattern of `+0.0` denotes `0`. -/
theorem ofBits_zero : Ideal.ofBits .f32 0x00000000#32 = ((0 : ℝ) : EReal) := by
  simp [Ideal.ofBits, Ideal.ieee]

/-- The pattern `0x7F800000` denotes `+∞`. -/
theorem ofBits_inf : Ideal.ofBits .f32 0x7F800000#32 = ⊤ := by
  simp [Ideal.ofBits, Ideal.ieee]

end Cert.Consts

end
-- ==== Proof.Gaussian.lean ====
/- The Gaussian radial-basis response, as one function of the three argument arrays, in the two arrangements the
   programs use, and the law that joins them.

   For a point x (one row of 64 coordinates), a centre mu_o and a log-width l_o, the response is
   exp(-1/2 * |x - mu_o|^2 * exp(-2 l_o)). Both programs expand the square, |x - mu|^2 = |x|^2 - 2 x.mu + |mu|^2.
   One keeps the bracket and multiplies it by -1/2 and then by the inverse variance v = exp(-2 l) (`expanded`);
   the other distributes first: (-1/2 v) |x|^2 + v (x.mu) + (-1/2 v) |mu|^2 (`folded`). Distributing a product over a
   sum is a law of the reals, not of the extended reals, so the two agree where every entry of the arrays is a
   real number: then every sum, product and exponential below is a real, and the identity is one of `ring`. -/
import Idealize.ShloMosaic.PureOps.Ideal
import Idealize.ShloMosaic.Lib.ValueIdx
import proofs.«108094_j61186104099013_2_alg».proof.Proof.Consts

noncomputable section

namespace Cert.Gaussian

open Idealize.ShloMosaic Idealize.ShloMosaic.ValueIdx

/-- The points: 8 batches of 4096 rows of 64 coordinates. -/
abbrev SX : Shape := ⟨3, ![8, 4096, 64]⟩
/-- The 512 centres, 64 coordinates each. -/
abbrev SMu : Shape := ⟨2, ![512, 64]⟩
/-- The 512 log-widths. -/
abbrev SL : Shape := ⟨1, ![512]⟩
/-- The responses: one per point and centre. -/
abbrev SOut : Shape := ⟨3, ![8, 4096, 512]⟩

/-- The inverse variance of centre `o`: exp(-2 l_o). -/
def invVar (ls : SL.Idx → EReal) (o : Fin 512) : EReal :=
  Ideal.exp (Ideal.ofBits .f32 0xC0000000#32 * ls (ix1 o))

/-- The squared length of the point in row `s` of batch `b`. -/
def sqX (x : SX.Idx → EReal) (b : Fin 8) (s : Fin 4096) : EReal :=
  ∑ k : Fin 64, x (ix3 b s k) * x (ix3 b s k)

/-- The squared length of centre `o`. -/
def sqMu (mu : SMu.Idx → EReal) (o : Fin 512) : EReal :=
  ∑ k : Fin 64, mu (ix2 o k) * mu (ix2 o k)

/-- The inner product of that point with centre `o`. -/
def dotXMu (x : SX.Idx → EReal) (mu : SMu.Idx → EReal) (b : Fin 8) (s : Fin 4096) (o : Fin 512) : EReal :=
  ∑ k : Fin 64, x (ix3 b s k) * mu (ix2 o k)

/-- The response with the bracket kept: exp((-1/2 * ((|x|^2 - 2 x.mu) + |mu|^2)) * v). Each squared length is a sum
    started from zero. -/
def expanded (x : SX.Idx → EReal) (mu : SMu.Idx → EReal) (ls : SL.Idx → EReal) : SOut.Idx → EReal := fun i =>
  Ideal.exp ((Ideal.ofBits .f32 0xBF000000#32
      * (((Ideal.ofBits .f32 0x00000000#32 + sqX x (i 0) (i 1))
          - Ideal.ofBits .f32 0x40000000#32 * dotXMu x mu (i 0) (i 1) (i 2))
        + (Ideal.ofBits .f32 0x00000000#32 + sqMu mu (i 2))))
    * invVar ls (i 2))

/-- The response with the product distributed: exp(((-1/2 v) |x|^2 + v (x.mu)) + (-1/2 v) |mu|^2). -/
def folded (x : SX.Idx → EReal) (mu : SMu.Idx → EReal) (ls : SL.Idx → EReal) : SOut.Idx → EReal := fun i =>
  Ideal.exp (((Ideal.ofBits .f32 0xBF000000#32 * invVar ls (i 2)) * sqX x (i 0) (i 1)
      + invVar ls (i 2) * dotXMu x mu (i 0) (i 1) (i 2))
    + (Ideal.ofBits .f32 0xBF000000#32 * invVar ls (i 2)) * (Ideal.ofBits .f32 0x00000000#32 + sqMu mu (i 2)))

/-- A finite sum of reals, read in the extended reals, is the sum of the readings. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- An array is real when each entry is a real number (neither infinity). -/
def IsReal {S : Shape} (x : S.Idx → EReal) : Prop := ∀ i, ∃ r : ℝ, x i = (r : EReal)

/-- On real arrays the two arrangements are one function: with v = exp(-2 l) > 0, s = |x|^2, p = x.mu, q = |mu|^2
    all real, ((-1/2) v) s + v p + ((-1/2) v) q = ((-1/2) ((s - 2 p) + q)) v. -/
theorem folded_eq_expanded (x : SX.Idx → EReal) (mu : SMu.Idx → EReal) (ls : SL.Idx → EReal)
    (hx : IsReal x) (hmu : IsReal mu) (hls : IsReal ls) : folded x mu ls = expanded x mu ls := by
  choose xr hxr using hx
  choose mr hmr using hmu
  choose lr hlr using hls
  funext i
  have ev : invVar ls (i 2) = ((Real.exp (-2 * lr (ix1 (i 2))) : ℝ) : EReal) := by
    unfold invVar
    rw [hlr, Cert.Consts.ofBits_neg_two, ← EReal.coe_mul, Ideal.exp_coe]
  have es : sqX x (i 0) (i 1) = ((∑ k : Fin 64, xr (ix3 (i 0) (i 1) k) * xr (ix3 (i 0) (i 1) k) : ℝ) : EReal) := by
    unfold sqX
    rw [← coe_sum]
    exact Finset.sum_congr rfl fun k _ => by rw [hxr, ← EReal.coe_mul]
  have eq : sqMu mu (i 2) = ((∑ k : Fin 64, mr (ix2 (i 2) k) * mr (ix2 (i 2) k) : ℝ) : EReal) := by
    unfold sqMu
    rw [← coe_sum]
    exact Finset.sum_congr rfl fun k _ => by rw [hmr, ← EReal.coe_mul]
  have ep : dotXMu x mu (i 0) (i 1) (i 2)
      = ((∑ k : Fin 64, xr (ix3 (i 0) (i 1) k) * mr (ix2 (i 2) k) : ℝ) : EReal) := by
    unfold dotXMu
    rw [← coe_sum]
    exact Finset.sum_congr rfl fun k _ => by rw [hxr, hmr, ← EReal.coe_mul]
  unfold folded expanded
  rw [ev, es, eq, ep, Cert.Consts.ofBits_neg_half, Cert.Consts.ofBits_two, Cert.Consts.ofBits_zero]
  simp only [← EReal.coe_mul, ← EReal.coe_add, ← EReal.coe_sub]
  congr 2
  ring

end Cert.Gaussian

end
-- ==== Proof.RefValue.lean ====
/- The reference computes the response in the arrangement with the bracket kept: read one operation at a time at an
   index (b, s, o), its last stage is exp((-1/2 * ((|x_bs|^2 - 2 x_bs.mu_o) + |mu_o|^2)) * exp(-2 l_o)), the two
   squared lengths host sums started from zero and the inner product the host's contraction over the 64 coordinates. -/
import proofs.«108094_j61186104099013_2_alg».proof.Proof.Gen.ReferenceIdeal.Read
import proofs.«108094_j61186104099013_2_alg».proof.Proof.Gaussian

noncomputable section

namespace Cert.ReferenceIdeal.RefValue

open Cert.ReferenceIdeal Cert.ReferenceIdeal.Gen Cert.ReferenceIdeal.Read
open Idealize.ShloMosaic Idealize.ShloMosaic.ValueIdx Cert.Gaussian

/-- The row of the points a response index reads: (b, s, k). -/
theorem row_of_sum (i : S8x4096x512.Idx) (k : Fin 64) :
    idx_main_v4 (idx_main_v8 (idx_main_v11 i)) k = ix3 (i 0) (i 1) k :=
  funext fun a => Fin.ext (by match a with | ⟨0, _⟩ => rfl | ⟨1, _⟩ => rfl | ⟨2, _⟩ => rfl)

/-- The same row as the contraction's left operand reads it. -/
theorem row_of_dot (i : S8x4096x512.Idx) (k : Fin 64) : lidx_main_v7 i k = ix3 (i 0) (i 1) k :=
  funext fun a => Fin.ext (by match a with | ⟨0, _⟩ => rfl | ⟨1, _⟩ => rfl | ⟨2, _⟩ => rfl)

/-- The centre a response index reads, as the contraction's right operand: (o, k). -/
theorem centre_of_dot (i : S8x4096x512.Idx) (k : Fin 64) : ridx_main_v7 i k = ix2 (i 2) k :=
  funext fun a => Fin.ext (by match a with | ⟨0, _⟩ => rfl | ⟨1, _⟩ => rfl)

/-- The same centre as its squared length's sum reads it. -/
theorem centre_of_sum (i : S8x4096x512.Idx) (k : Fin 64) :
    idx_main_v6 (idx_main_v13 (idx_main_v14 i)) k = ix2 (i 2) k :=
  funext fun a => Fin.ext (by match a with | ⟨0, _⟩ => rfl | ⟨1, _⟩ => rfl)

/-- The log-width a response index reads: o. -/
theorem width_of (i : S8x4096x512.Idx) : idx_main_v18 (idx_main_v19 i) = ix1 (i 2) :=
  funext fun a => Fin.ext (by match a with | ⟨0, _⟩ => rfl)

/-- The reference's last stage is the response with the bracket kept. -/
theorem reference_eq (x : S8x4096x64.Idx → EReal) (mu : S512x64.Idx → EReal) (ls : S512.Idx → EReal) :
    val_main_v21 (F := Ideal) x mu ls = expanded x mu ls := by
  funext i
  rw [val_main_v21_apply, val_main_v20_apply, val_main_v17_apply, val_main_v16_apply, val_main_cst_3_apply,
    val_main_v15_apply, val_main_v12_apply, val_main_v11_apply, val_main_v8_apply, val_main_v4_apply,
    val_main_cst_0_apply, val_main_v10_apply, val_main_v9_apply, val_main_cst_2_apply, val_main_v7_apply,
    val_main_v14_apply, val_main_v13_apply, val_main_v6_apply, val_main_cst_1_apply, val_main_v19_apply,
    val_main_v18_apply, val_main_v2_apply, val_main_v1_apply, val_main_v0_apply, val_main_cst_apply]
  simp only [val_main_v3_apply, val_main_v5_apply, row_of_sum, row_of_dot, centre_of_dot, centre_of_sum, width_of,
    Ideal.ofBits_def, Ideal.mulf_def, Ideal.addf_def, Ideal.subf_def, Ideal.hostUnary_exp_def]
  rfl

end Cert.ReferenceIdeal.RefValue

end
-- ==== Proof.Payload.lean ====
/- What the kernel body stores, read at one entry. The body loads a block of 2048 points, the 512 centres and three
   rows a, c, b of 512 numbers, and stores, at (p, q), exp((a_q * |x_p|^2 + c_q * (x_p . mu_q)) + b_q): the squared
   length is a lane sum over the 64 coordinates kept as a column and spread along the row; the inner product is the
   matrix unit's contraction over the second axis of both operands, into a zero accumulator, of the operands narrowed
   to sixteen bits, which on exact values is no change. -/
import proofs.«108094_j61186104099013_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- A lane sum over the 64 coordinates of row `p`. -/
theorem rowSum_apply (v : FVec Ideal S2048x64 .f32) (h : S2048x64.Reduces [1] S2048) (hφ : FKind.Formats .f32)
    (hacc : (0x00000000#32 : BitVec 32) = 0x00000000#32) (p : Fin 2048) :
    multiReduction .add [1] S2048 v 0x00000000#32 h hφ hacc (ix1 p) = ∑ k : Fin 64, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- 2048 numbers kept as a column: entry (p, 0) is number p. -/
theorem column_apply {α : Type} (w : S2048.Idx → α) (h : S2048.ShapeCasts S2048x1) (p : Fin 2048) (u : Fin 1) :
    shapeCast S2048x1 w h (ix2 p u) = w (ix1 p) :=
  shapeCast_apply w h _ _ (by
    have hu : u.val = 0 := by omega
    rw [Shape.rowMajor_val_one, Shape.rowMajor_val_two]
    show p.val = p.val * 1 + u.val
    omega)

/-- A column spread along the rows: entry (p, q) is the column's entry p. -/
theorem spread_apply {α : Type} (w : S2048x1.Idx → α) (h : S2048x1.Broadcasts S2048x512) (p : Fin 2048) (q : Fin 512) :
    broadcastTo S2048x512 w h (ix2 p q) = w (ix2 p (0 : Fin 1)) := by
  refine broadcastTo_apply w h (ix2 p q) (ix2 p (0 : Fin 1)) fun ax => ?_
  match ax with
  | ⟨0, _⟩ =>
    show p.val = if (2048 : Nat) = 1 then 0 else p.val
    rw [if_neg (by decide)]
  | ⟨1, _⟩ =>
    show 0 = if (1 : Nat) = 1 then 0 else q.val
    rw [if_pos rfl]

/-- The contraction's left operand at output row p and contraction index k is entry (p, k): its first axis is kept. -/
theorem left_row (i : S2048x512.Idx) (g : dot_S2048x64_S512x64_S2048x512_1_1_0_0_n_n.contr.Idx) :
    (dot_S2048x64_S512x64_S2048x512_1_1_0_0_n_n.lhsIdx i g 0).val = (i 0).val := by
  unfold DotDims.lhsIdx
  rw [dif_neg (show ¬(0 : Fin S2048x64.rank) ∈ dot_S2048x64_S512x64_S2048x512_1_1_0_0_n_n.lhsBatch by decide),
    dif_pos (show (0 : Fin S2048x64.rank) ∈ dot_S2048x64_S512x64_S2048x512_1_1_0_0_n_n.lhsNonContracting by decide)]
  rfl

/-- The right operand at output column q is row q of the centres: its first axis is kept too. -/
theorem right_row (i : S2048x512.Idx) (g : dot_S2048x64_S512x64_S2048x512_1_1_0_0_n_n.contr.Idx) :
    (dot_S2048x64_S512x64_S2048x512_1_1_0_0_n_n.rhsIdx i g 0).val = (i 1).val := by
  unfold DotDims.rhsIdx
  rw [dif_neg (show ¬(0 : Fin S512x64.rank) ∈ dot_S2048x64_S512x64_S2048x512_1_1_0_0_n_n.rhsBatch by decide),
    dif_pos (show (0 : Fin S512x64.rank) ∈ dot_S2048x64_S512x64_S2048x512_1_1_0_0_n_n.rhsNonContracting by decide)]
  rfl

/-- The matrix unit's product into a zero accumulator, at (p, q): the sum over the 64 coordinates of row p of the
    left operand times row q of the right. -/
theorem product_apply (l : FVec Ideal S2048x64 .bf16) (r : FVec Ideal S512x64 .bf16) (p : Fin 2048) (q : Fin 512) :
    matmul dot_S2048x64_S512x64_S2048x512_1_1_0_0_n_n none l r (constant (F := Ideal) S2048x512 .f32 0x00000000#32) (ix2 p q)
      = ∑ k : Fin 64, l (ix2 p k) * r (ix2 q k) := by
  simp only [matmul]
  rw [Ideal.matmul_constant_zero_apply,
    ← Equiv.sum_comp (ValueIdx.contrEquiv1 dot_S2048x64_S512x64_S2048x512_1_1_0_0_n_n 64 rfl rfl).symm]
  refine Finset.sum_congr rfl fun k _ => ?_
  have hk := ValueIdx.contrEquiv1_symm_val dot_S2048x64_S512x64_S2048x512_1_1_0_0_n_n 64 rfl rfl k
  have el : dot_S2048x64_S512x64_S2048x512_1_1_0_0_n_n.lhsIdx (ix2 p q)
      ((ValueIdx.contrEquiv1 dot_S2048x64_S512x64_S2048x512_1_1_0_0_n_n 64 rfl rfl).symm k) = ix2 p k :=
    funext fun a => Fin.ext (by
      match a with
      | ⟨0, _⟩ => exact left_row _ _
      | ⟨1, _⟩ => exact (dot_S2048x64_S512x64_S2048x512_1_1_0_0_n_n.lhsIdx_val_of_single rfl _ _).trans hk)
  have er : dot_S2048x64_S512x64_S2048x512_1_1_0_0_n_n.rhsIdx (ix2 p q)
      ((ValueIdx.contrEquiv1 dot_S2048x64_S512x64_S2048x512_1_1_0_0_n_n 64 rfl rfl).symm k) = ix2 q k :=
    funext fun a => Fin.ext (by
      match a with
      | ⟨0, _⟩ => exact right_row _ _
      | ⟨1, _⟩ => exact (dot_S2048x64_S512x64_S2048x512_1_1_0_0_n_n.rhsIdx_val_of_single rfl _ _).trans hk)
  rw [el, er]

/-- The stored value at (p, q), from the five loaded blocks. -/
theorem payload_apply (x0 : Vec Ideal S2048x64 .f32) (x1 : Vec Ideal S512x64 .f32) (a c b : Vec Ideal S1x512 .f32)
    (p : Fin 2048) (q : Fin 512) :
    k0_pay1 x0 x1 a c b (ix2 p q)
      = Ideal.exp ((a (ix2 (0 : Fin 1) q) * (∑ k : Fin 64, x0 (ix2 p k) * x0 (ix2 p k))
          + c (ix2 (0 : Fin 1) q) * (∑ k : Fin 64, x0 (ix2 p k) * x1 (ix2 q k))) + b (ix2 (0 : Fin 1) q)) := by
  unfold k0_pay1
  simp only [shapeCast_self]
  exact congrArg Ideal.exp (congrArg₂ (· + ·)
    (congrArg₂ (· + ·)
      (congrArg₂ (· * ·) (broadcastTo_1b_ab_apply a _ p q)
        ((spread_apply _ _ p q).trans ((column_apply _ _ p 0).trans (rowSum_apply (mulf x0 x0) _ _ _ p))))
      (congrArg₂ (· * ·) (broadcastTo_1b_ab_apply c _ p q)
        (product_apply (truncf .bf16 x0 bitsLt_bf16_f32) (truncf .bf16 x1 bitsLt_bf16_f32) p q)))
    (broadcastTo_1b_ab_apply b _ p q))

end Cert.KernelIdeal.Body

end
-- ==== Proof.Entry.lean ====
/- What the region finds in its arrays. Before the region the host flattens the points to 32768 rows, and computes, per
   centre o, the inverse variance v_o = exp(-2 l_o), a_o = -1/2 v_o, the squared length of the centre as a sum
   started from zero, and b_o = a_o |mu_o|^2; a, v and b are handed over as 1 x 512 rows. Here each of those arrays is
   read at an index, in terms of the argument arrays. -/
import proofs.«108094_j61186104099013_2_alg».proof.Proof.Gen.KernelIdeal.Frame
import proofs.«108094_j61186104099013_2_alg».proof.Proof.Gaussian
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Gaussian

/-! ## The host's rows, as pure terms read at an index -/

/-- A scalar literal splat over the 512 centres reads the literal everywhere. -/
theorem splat_apply (w : BitVec 32) (i : S512.Idx) :
    broadcastInDim S512 ![] bcast_S_S512 (constant (F := Ideal) S_ .f32 w) i = Ideal.ofBits .f32 w :=
  broadcastInDim_apply _ bcast_S_S512 _ i (fun a => a.elim0) (fun a => a.elim0)

/-- The inverse variances as the host computes them. -/
def invRow (ls : FVec Ideal S512 .f32) : FVec Ideal S512 .f32 :=
  Host.exp (mulf (broadcastInDim S512 ![] bcast_S_S512 (constant (F := Ideal) S_ .f32 0xC0000000#32)) ls)

/-- The coefficients of the point's squared length, -1/2 of the inverse variances. -/
def halfRow (ls : FVec Ideal S512 .f32) : FVec Ideal S512 .f32 :=
  mulf (broadcastInDim S512 ![] bcast_S_S512 (constant (F := Ideal) S_ .f32 0xBF000000#32)) (invRow ls)

/-- The centres' squared lengths, host sums started from zero. -/
def normRow (mu : FVec Ideal S512x64 .f32) : FVec Ideal S512 .f32 :=
  Host.reduceAdd (mulf mu mu) (constant (F := Ideal) S_ .f32 0x00000000#32) reducesTo_S512x64_S512_d1 h_S_

theorem invRow_apply (ls : FVec Ideal S512 .f32) (q : Fin 512) : invRow ls (ix1 q) = invVar ls q := by
  unfold invVar
  exact congrArg (fun z => Ideal.exp (z * ls (ix1 q))) (splat_apply _ _)

theorem halfRow_apply (ls : FVec Ideal S512 .f32) (q : Fin 512) :
    halfRow ls (ix1 q) = Ideal.ofBits .f32 0xBF000000#32 * invVar ls q := by
  show broadcastInDim S512 ![] bcast_S_S512 (constant (F := Ideal) S_ .f32 0xBF000000#32) (ix1 q) * invRow ls (ix1 q) = _
  rw [splat_apply, invRow_apply]

theorem normRow_apply (mu : FVec Ideal S512x64 .f32) (q : Fin 512) :
    normRow mu (ix1 q) = Ideal.ofBits .f32 0x00000000#32 + sqMu mu q := by
  unfold normRow sqMu
  simp only [Host.reduceAdd, Ideal.hostReduceAdd_def]
  rw [Ideal.hostReduceAdd_single reducesTo_S512x64_S512_d1 (by decide)]
  refine congrArg (_ + ·) (Finset.sum_congr rfl fun k _ => ?_)
  show (mulf mu mu) _ = (mulf mu mu) (ix2 q k)
  exact congrArg (mulf mu mu) (funext fun a => Fin.ext (by match a with | ⟨0, _⟩ => rfl | ⟨1, _⟩ => rfl))

/-! ## The arrays as the region finds them -/

variable (m : (ℓ : Loc nD τ sig) → Buf (Elt Ideal) ℓ)

/-- The points, flattened: row r of the flat array is row r mod 4096 of batch r / 4096. -/
theorem flat_points (c : Dev nD) :
    (V m c main_v0 : S32768x64.Idx → EReal)
      = shapeCast S32768x64 (m ((c : Thread nD τ).loc main_arg0) : S8x4096x64.Idx → EReal) shapeCasts_S8x4096x64_S32768x64 := by
  show StableHlo.after hostOps0 (fun b => m (c, b)) (Proc.devRef .tc main_v0) = _
  after_results
  rfl

/-- The row of coefficients a. -/
theorem half_row (c : Dev nD) :
    (V m c main_v9 : S1x512.Idx → EReal)
      = shapeCast S1x512 (halfRow (m ((c : Thread nD τ).loc main_arg2) : S512.Idx → EReal)) shapeCasts_S512_S1x512 := by
  show StableHlo.after hostOps0 (fun b => m (c, b)) (Proc.devRef .tc main_v9) = _
  after_results
  rfl

/-- The row of inverse variances. -/
theorem inv_row (c : Dev nD) :
    (V m c main_v10 : S1x512.Idx → EReal)
      = shapeCast S1x512 (invRow (m ((c : Thread nD τ).loc main_arg2) : S512.Idx → EReal)) shapeCasts_S512_S1x512 := by
  show StableHlo.after hostOps0 (fun b => m (c, b)) (Proc.devRef .tc main_v10) = _
  after_results
  rfl

/-- The row of constant terms b. -/
theorem const_row (c : Dev nD) :
    (V m c main_v11 : S1x512.Idx → EReal)
      = shapeCast S1x512 (mulf (halfRow (m ((c : Thread nD τ).loc main_arg2) : S512.Idx → EReal))
          (normRow (m ((c : Thread nD τ).loc main_arg1) : S512x64.Idx → EReal))) shapeCasts_S512_S1x512 := by
  show StableHlo.after hostOps0 (fun b => m (c, b)) (Proc.devRef .tc main_v11) = _
  after_results
  rfl

/-! ## The same, at an index -/

/-- Flat row r holds the point in row r mod 4096 of batch r / 4096. -/
theorem flat_points_apply (c : Dev nD) (r : Fin 32768) (k : Fin 64) :
    (V m c main_v0 : S32768x64.Idx → EReal) (ix2 r k)
      = (m ((c : Thread nD τ).loc main_arg0) : S8x4096x64.Idx → EReal)
          (ix3 (⟨r.val / 4096, by omega⟩ : Fin 8) (⟨r.val % 4096, by omega⟩ : Fin 4096) k) := by
  rw [flat_points]
  refine shapeCast_apply _ _ _ _ ?_
  show (S8x4096x64.rowMajor (ix3 (⟨r.val / 4096, by omega⟩ : Fin 8) (⟨r.val % 4096, by omega⟩ : Fin 4096) k)).val
    = (S32768x64.rowMajor (ix2 r k)).val
  rw [Shape.rowMajor_val_three, Shape.rowMajor_val_two]
  show (r.val / 4096 * 4096 + r.val % 4096) * 64 + k.val = r.val * 64 + k.val
  omega

/-- The coefficient of the squared length for centre q: -1/2 of its inverse variance. -/
theorem half_row_apply (c : Dev nD) (u : Fin 1) (q : Fin 512) :
    (V m c main_v9 : S1x512.Idx → EReal) (ix2 u q)
      = Ideal.ofBits .f32 0xBF000000#32 * invVar (m ((c : Thread nD τ).loc main_arg2) : S512.Idx → EReal) q := by
  rw [half_row, shapeCast_a_1a_apply, halfRow_apply]

/-- The coefficient of the inner product for centre q: its inverse variance. -/
theorem inv_row_apply (c : Dev nD) (u : Fin 1) (q : Fin 512) :
    (V m c main_v10 : S1x512.Idx → EReal) (ix2 u q)
      = invVar (m ((c : Thread nD τ).loc main_arg2) : S512.Idx → EReal) q := by
  rw [inv_row, shapeCast_a_1a_apply, invRow_apply]

/-- The constant term for centre q: -1/2 of its inverse variance times its squared length. -/
theorem const_row_apply (c : Dev nD) (u : Fin 1) (q : Fin 512) :
    (V m c main_v11 : S1x512.Idx → EReal) (ix2 u q)
      = (Ideal.ofBits .f32 0xBF000000#32 * invVar (m ((c : Thread nD τ).loc main_arg2) : S512.Idx → EReal) q)
        * (Ideal.ofBits .f32 0x00000000#32 + sqMu (m ((c : Thread nD τ).loc main_arg1) : S512x64.Idx → EReal) q) := by
  rw [const_row, shapeCast_a_1a_apply]
  show halfRow _ (ix1 q) * normRow _ (ix1 q) = _
  rw [halfRow_apply, normRow_apply]

end Cert.KernelIdeal.Entry

end
-- ==== Proof.Blocks.lean ====
/- From blocks to the flat result. The grid has 16 points; point t stages rows 2048 t ... 2048 t + 2047 of the flat
   points, the whole of the centres and of the three rows, and writes back rows 2048 t ... 2048 t + 2047 of the flat
   result. What it writes at local (p, q) is the distributed arrangement of the response of flat row 2048 t + p to
   centre q, so each written block is a block of ONE function of the flat index, and the 16 blocks tile the 32768 rows:
   the flat result array ends holding that function. -/
import proofs.«108094_j61186104099013_2_alg».proof.Proof.Gen.KernelIdeal.Frame
import proofs.«108094_j61186104099013_2_alg».proof.Proof.Payload
import proofs.«108094_j61186104099013_2_alg».proof.Proof.Entry
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Gaussian Cert.KernelIdeal.Body Cert.KernelIdeal.Entry

variable (m : (ℓ : Loc nD τ sig) → Buf (Elt Ideal) ℓ)

theorem hz : (![0, 0] : Fin 2 → Nat) = fun _ => 0 := funext fun a => by fin_cases a <;> rfl

/-- The response of flat row r to centre o, in the distributed arrangement. -/
def flatAt (x : SX.Idx → EReal) (mu : SMu.Idx → EReal) (ls : SL.Idx → EReal) (r : Fin 32768) (o : Fin 512) : EReal :=
  folded x mu ls (ix3 (⟨r.val / 4096, by omega⟩ : Fin 8) (⟨r.val % 4096, by omega⟩ : Fin 4096) o)

/-- The flat result as one function of the flat index. -/
def flat (x : SX.Idx → EReal) (mu : SMu.Idx → EReal) (ls : SL.Idx → EReal) : S32768x512.Idx → EReal :=
  fun j => flatAt x mu ls (j 0) (j 1)

/-- The printed index maps, decided over the grid: the points' and the result's blocks advance by one block of rows
    per point; the centres and the three rows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 :=
  lt_of_lt_of_eq t.isLt (show cfg0.N = 16 from N_0)

/-- The points' block at point t: local row p is flat row 2048 t + p. -/
theorem points_blk (c : Dev nD) (t : Fin cfg0.N) (p : Fin 2048) (k : Fin 64) (r : Fin 32768) (hr : r.val = t.val * 2048 + p.val) :
    (iblk m c 0 t : Vec Ideal S2048x64 .f32) (ix2 p k) = (V m c main_v0 : S32768x64.Idx → EReal) (ix2 r k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 2048 + 1 * p.val = r.val; rw [e0, hr]; omega
  | ⟨1, _⟩ => show win0_0.index t (1 : Fin 2) * 64 + 1 * k.val = k.val; rw [e1]; omega

/-- The centres' block at any point is the whole array. -/
theorem centres_blk (c : Dev nD) (t : Fin cfg0.N) (q : Fin 512) (k : Fin 64) :
    (iblk m c 1 t : Vec Ideal S512x64 .f32) (ix2 q k) = (V m c main_arg1 : S512x64.Idx → EReal) (ix2 q k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 512 + 1 * q.val = q.val; rw [e0]; omega
  | ⟨1, _⟩ => show win0_1.index t (1 : Fin 2) * 64 + 1 * k.val = k.val; rw [e1]; omega

/-- Each of the three rows' blocks at any point is the whole row. -/
theorem half_blk (c : Dev nD) (t : Fin cfg0.N) (u : Fin 1) (q : Fin 512) :
    (iblk m c 2 t : Vec Ideal S1x512 .f32) (ix2 u q) = (V m c main_v9 : S1x512.Idx → EReal) (ix2 u q) := by
  obtain ⟨-, -, -, -, e0, e1, -⟩ := idx_facts t
  unfold iblk
  rw [View.read_apply]
  show V m c main_v9 _ = V m c main_v9 _
  refine congrArg (V m c main_v9) (funext fun a => Fin.ext ?_)
  match a with
  | ⟨0, _⟩ => show win0_2.index t (0 : Fin 2) * 1 + 1 * u.val = u.val; rw [e0]; omega
  | ⟨1, _⟩ => show win0_2.index t (1 : Fin 2) * 512 + 1 * q.val = q.val; rw [e1]; omega

theorem inv_blk (c : Dev nD) (t : Fin cfg0.N) (u : Fin 1) (q : Fin 512) :
    (iblk m c 3 t : Vec Ideal S1x512 .f32) (ix2 u q) = (V m c main_v10 : S1x512.Idx → EReal) (ix2 u q) := by
  obtain ⟨-, -, -, -, -, -, e0, e1, -⟩ := idx_facts t
  unfold iblk
  rw [View.read_apply]
  show V m c main_v10 _ = V m c main_v10 _
  refine congrArg (V m c main_v10) (funext fun a => Fin.ext ?_)
  match a with
  | ⟨0, _⟩ => show win0_3.index t (0 : Fin 2) * 1 + 1 * u.val = u.val; rw [e0]; omega
  | ⟨1, _⟩ => show win0_3.index t (1 : Fin 2) * 512 + 1 * q.val = q.val; rw [e1]; omega

theorem const_blk (c : Dev nD) (t : Fin cfg0.N) (u : Fin 1) (q : Fin 512) :
    (iblk m c 4 t : Vec Ideal S1x512 .f32) (ix2 u q) = (V m c main_v11 : S1x512.Idx → EReal) (ix2 u q) := by
  obtain ⟨-, -, -, -, -, -, -, -, e0, e1, -⟩ := idx_facts t
  unfold iblk
  rw [View.read_apply]
  show V m c main_v11 _ = V m c main_v11 _
  refine congrArg (V m c main_v11) (funext fun a => Fin.ext ?_)
  match a with
  | ⟨0, _⟩ => show win0_4.index t (0 : Fin 2) * 1 + 1 * u.val = u.val; rw [e0]; omega
  | ⟨1, _⟩ => show win0_4.index t (1 : Fin 2) * 512 + 1 * q.val = q.val; rw [e1]; omega

/-- What point t stores at local (p, q) is the response of flat row 2048 t + p to centre q. -/
theorem stored_apply (c : Dev nD) (t : Fin cfg0.N) (p : Fin 2048) (q : Fin 512) (r : Fin 32768)
    (hr : r.val = t.val * 2048 + p.val) :
    k0_pay1 (iblk m c 0 t) (iblk m c 1 t) (iblk m c 2 t) (iblk m c 3 t) (iblk m c 4 t) (ix2 p q)
      = flatAt (m ((c : Thread nD τ).loc main_arg0) : S8x4096x64.Idx → EReal)
          (m ((c : Thread nD τ).loc main_arg1) : S512x64.Idx → EReal)
          (m ((c : Thread nD τ).loc main_arg2) : S512.Idx → EReal) r q := by
  refine (payload_apply (iblk m c 0 t) (iblk m c 1 t) (iblk m c 2 t) (iblk m c 3 t) (iblk m c 4 t) p q).trans ?_
  rw [half_blk m c t 0 q, inv_blk m c t 0 q, const_blk m c t 0 q, half_row_apply, inv_row_apply, const_row_apply]
  have e1 : ∀ k : Fin 64, (iblk m c 0 t : Vec Ideal S2048x64 .f32) (ix2 p k)
      = (m ((c : Thread nD τ).loc main_arg0) : S8x4096x64.Idx → EReal)
          (ix3 (⟨r.val / 4096, by omega⟩ : Fin 8) (⟨r.val % 4096, by omega⟩ : Fin 4096) k) := fun k =>
    (points_blk m c t p k r hr).trans (flat_points_apply m c r k)
  have e2 : ∀ k : Fin 64, (iblk m c 1 t : Vec Ideal S512x64 .f32) (ix2 q k)
      = (m ((c : Thread nD τ).loc main_arg1) : S512x64.Idx → EReal) (ix2 q k) := fun k =>
    (centres_blk m c t q k).trans (congrFun (V_main_arg1 m c) (ix2 q k))
  simp only [e1, e2]
  rfl

/-- What point t writes back is block t of the flat result. -/
theorem flushed_eq (c : Dev nD) (t : Fin cfg0.N) :
    (dats m 0 c).flushed 5 t = ((cfg0.win 5).blk t).view.read (Elt Ideal)
      (flat (m ((c : Thread nD τ).loc main_arg0) : S8x4096x64.Idx → EReal)
        (m ((c : Thread nD τ).loc main_arg1) : S512x64.Idx → EReal)
        (m ((c : Thread nD τ).loc main_arg2) : S512.Idx → EReal)) := by
  show (cfg0.win 5).cut (grid0.coords t) ((dats m 0 c).after 5 t) = _
  rw [after0_5]
  unfold out0_5
  rw [View.canon_unit_zero hz]
  simp only [View.ld_unit_zero (S := S2048x64) hz, View.ld_unit_zero (S := S512x64) hz, View.ld_unit_zero (S := S1x512) hz]
  obtain ⟨-, -, -, -, -, -, -, -, -, -, e0, e1⟩ := idx_facts t
  have ht := point_lt t
  refine funext fun (j : S2048x512.Idx) => ?_
  obtain ⟨p, q, rfl⟩ : ∃ (p : Fin 2048) (q : Fin 512), j = ix2 p q := ⟨j 0, j 1, eq_ix2 j⟩
  have hemb : ((cfg0.win 5).blk t).view.emb (ix2 p q) = ix2 (⟨t.val * 2048 + p.val, by omega⟩ : Fin 32768) q := by
    funext a; apply Fin.ext
    match a with
    | ⟨0, _⟩ => show win0_5.index t (0 : Fin 2) * 2048 + 1 * p.val = t.val * 2048 + p.val; rw [e0]; omega
    | ⟨1, _⟩ => show win0_5.index t (1 : Fin 2) * 512 + 1 * q.val = q.val; rw [e1]; omega
  show k0_pay1 (iblk m c 0 t) (iblk m c 1 t) (iblk m c 2 t) (iblk m c 3 t) (iblk m c 4 t) (ix2 p q)
    = flat _ _ _ (((cfg0.win 5).blk t).view.emb (ix2 p q))
  rw [hemb]
  exact stored_apply m c t p q ⟨t.val * 2048 + p.val, by omega⟩ rfl

/-- An index of the flat result is in point t's block iff each coordinate is in the block's range on its axis. -/
theorem mem_blk (t : Fin cfg0.N) (i : S32768x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v12).slice (win0_5.rect t)).set ↔ _
  rw [View.set_slice_whole, Rect.mem_set_unit]
  exact Iff.rfl

/-- Every flat row r is written by point r / 2048. -/
theorem cover (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have hN : cfg0.N = 16 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 512 ≤ (i 1).val ∧ (i 1).val < win0_5.index t (1 : Fin 2) * 512 + 512
    rw [e1]; omega

/-- The flat result array after the run. -/
theorem final (c : Dev nD) :
    (dats m 0 c).arrAt 5 cfg0.N
      = flat (m ((c : Thread nD τ).loc main_arg0) : S8x4096x64.Idx → EReal)
          (m ((c : Thread nD τ).loc main_arg1) : S512x64.Idx → EReal)
          (m ((c : Thread nD τ).loc main_arg2) : S512.Idx → EReal) :=
  (dats m 0 c).arrAt_eq_of_cover 5 _ (fun t _ => flushed_eq m c t) cover

end Cert.KernelIdeal.Blocks

end
-- ==== Proof.Result.lean ====
/- The kernel's result. After the region the host reshapes the flat 32768 x 512 result to 8 x 4096 x 512: entry (b, s, o)
   is flat row 4096 b + s, centre o, which is the response of point (b, s) to centre o in the distributed arrangement.
   With the flat array after the run known, the program's run ends with its result array at that function of the
   arguments and the arguments unchanged. -/
import proofs.«108094_j61186104099013_2_alg».proof.Proof.Gen.KernelIdeal.Frame
import proofs.«108094_j61186104099013_2_alg».proof.Proof.Blocks
import Idealize.ShloMosaic.Lib.StableHlo.Run
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Gaussian Cert.KernelIdeal.Blocks

variable (m : (ℓ : Loc nD τ sig) → Buf (Elt Ideal) ℓ) (ρ : Dev nD → PrngReg)

/-- The flat result reshaped is the distributed arrangement: (b, s, o) reads flat row 4096 b + s. -/
theorem unflatten (x : SX.Idx → EReal) (mu : SMu.Idx → EReal) (ls : SL.Idx → EReal)
    (h : S32768x512.ShapeCasts S8x4096x512) : shapeCast S8x4096x512 (flat x mu ls) h = folded x mu ls := by
  funext i
  obtain ⟨b, s, o, rfl⟩ : ∃ (b : Fin 8) (s : Fin 4096) (o : Fin 512), i = ix3 b s o := ⟨i 0, i 1, i 2, eq_ix3 i⟩
  refine (shapeCast_apply (flat x mu ls) h (ix3 b s o) (ix2 (⟨b.val * 4096 + s.val, by omega⟩ : Fin 32768) o) ?_).trans ?_
  · show (S32768x512.rowMajor (ix2 (⟨b.val * 4096 + s.val, by omega⟩ : Fin 32768) o)).val
      = (S8x4096x512.rowMajor (ix3 b s o)).val
    rw [Shape.rowMajor_val_three, Shape.rowMajor_val_two]
    rfl
  · show flatAt x mu ls ⟨b.val * 4096 + s.val, by omega⟩ o = folded x mu ls (ix3 b s o)
    unfold flatAt
    refine congrArg (folded x mu ls) (funext fun a => Fin.ext ?_)
    match a with
    | ⟨0, _⟩ => show (b.val * 4096 + s.val) / 4096 = b.val; omega
    | ⟨1, _⟩ => show (b.val * 4096 + s.val) % 4096 = s.val; omega
    | ⟨2, _⟩ => rfl

/-- The result array after the host's last line. -/
theorem tail_eq (c : Dev nD) :
    Pipeline.afterTail₀ cfgs (dats m) 0 (V0 m) [hostOps1] c main_v13
      = folded (m ((c : Thread nD τ).loc main_arg0) : S8x4096x64.Idx → EReal)
          (m ((c : Thread nD τ).loc main_arg1) : S512x64.Idx → EReal)
          (m ((c : Thread nD τ).loc main_arg2) : S512.Idx → EReal) := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v12)
      = flat (m ((c : Thread nD τ).loc main_arg0) : S8x4096x64.Idx → EReal)
          (m ((c : Thread nD τ).loc main_arg1) : S512x64.Idx → EReal)
          (m ((c : Thread nD τ).loc main_arg2) : S512.Idx → EReal) :=
    (Pipeline.withArrays_arr spec0 launch0.win.arr_inj c _ _ 5).trans (final m c)
  rw [e]
  exact unflatten _ _ _ _

/-- The kernel's run, read: every weakly fair execution terminates with the result array at the distributed arrangement
    of the argument arrays, and the arguments unchanged. -/
theorem run : θ_run defs (onTc (τ := τ) (main (F := Ideal))) ⟨m, fun _ => 0, ρ⟩ (fun r => ∀ c : Dev nD,
      r.2.mem ((c.tc : Thread nD τ).loc main_v13)
        = folded (m ((c.tc : Thread nD τ).loc main_arg0) : S8x4096x64.Idx → EReal)
            (m ((c.tc : Thread nD τ).loc main_arg1) : S512x64.Idx → EReal)
            (m ((c.tc : Thread nD τ).loc main_arg2) : S512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.Finite.lean ====
/- From the precondition to real entries. The precondition says, of each of the three argument arrays, that every entry's
   absolute value is below plus infinity, the three tests joined by `and`. An extended real whose absolute value
   max(x, -x) is below plus infinity is neither infinity, so it is a real number. -/
import proofs.«108094_j61186104099013_2_alg».proof.Pre_finite_inputs
import proofs.«108094_j61186104099013_2_alg».proof.Proof.Gen.Pre_finite_inputs
import proofs.«108094_j61186104099013_2_alg».proof.Proof.Gaussian
import Idealize.ShloMosaic.PureOps.Ideal.Laws
import Idealize.ShloMosaic.Lib.ReduceAll
import Idealize.ShloMosaic.Lib.ValueIdx

noncomputable section

namespace Cert.Finite

open Idealize.ShloMosaic Cert.Gaussian Cert.Pre_finite_inputs Cert.Pre_finite_inputs.Gen

/-- The result of a test over a whole array has one index. -/
instance : Subsingleton S_.Idx := ⟨fun a b => funext fun d => d.elim0⟩

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  rw [Cert.Consts.ofBits_inf] at h
  induction x using EReal.rec with
  | bot => simp [Ideal.cmp] at h
  | top => simp [Ideal.cmp] at h
  | coe r => exact ⟨r, rfl⟩

/-- Under the precondition every entry of each argument array is a real number. -/
theorem real_of_pre (x : FVec Ideal S8x4096x64 .f32) (mu : FVec Ideal S512x64 .f32) (ls : FVec Ideal S512 .f32)
    (h : Cert.Pre_finite_inputs.fn (F := Ideal) x mu ls = fun _ => 1#1) : IsReal x ∧ IsReal mu ∧ IsReal ls := by
  have h0 := congrFun h ValueIdx.ix0
  dsimp only [Cert.Pre_finite_inputs.fn] at h0
  obtain ⟨h01, h2⟩ := IntOp.andi_eq_one.1 h0
  obtain ⟨hx, hmu⟩ := IntOp.andi_eq_one.1 h01
  refine ⟨fun i => real_of_abs_lt _ ?_, fun i => real_of_abs_lt _ ?_, fun i => real_of_abs_lt _ ?_⟩
  · exact Host.reduce_andi_all _ _ _ _ _ hx i
  · exact Host.reduce_andi_all _ _ _ _ _ hmu i
  · exact Host.reduce_andi_all _ _ _ _ _ h2 i

end Cert.Finite

end
-- ==== Proof.lean ====
/- The certificate of a Gaussian radial-basis layer: for 8 x 4096 points x of 64 coordinates, 512 centres mu_o and 512
   log-widths l_o, the response exp(-1/2 |x - mu_o|^2 exp(-2 l_o)), computed with the square expanded,
   |x - mu|^2 = |x|^2 - 2 x.mu + |mu|^2.

   The kernel flattens the points to 32768 rows, precomputes per centre the inverse variance v = exp(-2 l),
   a = -1/2 v and b = a |mu|^2, and in 16 blocks of 2048 rows stores exp((a |x|^2 + v (x.mu)) + b), the inner products by
   the matrix unit on operands narrowed to sixteen bits; the flat result is reshaped back. The reference computes
   exp((-1/2 ((|x|^2 - 2 x.mu) + |mu|^2)) v) with jnp operations.

   On exact values narrowing is no change, and a lane sum, a host sum and both contractions are plain sums over the 64
   coordinates. What separates the two programs is the distribution of the product over the bracket, a law of the reals
   and not of the extended reals: it is here that the precondition is used — every entry of the three arrays is a real
   number, so every intermediate value is, and the two exponents agree by ring arithmetic (Proof/Gaussian.lean).

   The modules: Proof/Consts.lean (the literals), Proof/Gaussian.lean (the two arrangements and the law),
   Proof/RefValue.lean (the reference is the arrangement with the bracket kept), Proof/Payload.lean (the body's stored
   value at an entry), Proof/Entry.lean (the arrays the region finds), Proof/Blocks.lean (the 16 written blocks make
   one flat array), Proof/Result.lean (the reshape back, and the kernel's run), Proof/Finite.lean (the precondition
   gives real entries). The three frames are the generated ones; the ideal pass rewrote nothing, so the kernel's
   idealization is its own text read on exact values. -/
import proofs.«108094_j61186104099013_2_alg».proof.Defs
import proofs.«108094_j61186104099013_2_alg».proof.Proof.Gen.Kernel
import proofs.«108094_j61186104099013_2_alg».proof.Proof.Gen.Kernel.Frame
import proofs.«108094_j61186104099013_2_alg».proof.Proof.Gen.KernelIdeal
import proofs.«108094_j61186104099013_2_alg».proof.Proof.Gen.KernelIdeal.Frame
import proofs.«108094_j61186104099013_2_alg».proof.Proof.Gen.ReferenceIdeal
import proofs.«108094_j61186104099013_2_alg».proof.Proof.Gen.ReferenceIdeal.Run
import proofs.«108094_j61186104099013_2_alg».proof.Proof.Gen.ReferenceIdeal.Read
import proofs.«108094_j61186104099013_2_alg».proof.Proof.Gen.Pre_finite_inputs
import proofs.«108094_j61186104099013_2_alg».proof.Proof.RefValue
import proofs.«108094_j61186104099013_2_alg».proof.Proof.Result
import proofs.«108094_j61186104099013_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on exact values. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the response in the arrangement with the bracket kept: the reference by reading its
    operations, the kernel because its distributed arrangement is the same function on real entries. -/
theorem algebraic : Cert.algebraic_KernelIdeal_ReferenceIdeal := by
  intro m ρ m' ρ' hpre hagree
  refine ⟨fun c => Cert.Gaussian.expanded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Result.run m ρ)
    obtain ⟨hx, hmu, hls⟩ := Cert.Finite.real_of_pre _ _ _ (hpre c)
    exact Cert.Gaussian.folded_eq_expanded _ _ _ hx hmu hls
  · refine (θ_run Cert.ReferenceIdeal.defs _ _).mono (fun _ h c => ⟨?_, (h c).2⟩)
      (Cert.ReferenceIdeal.Value.run (F := Ideal) m' ρ')
    rw [(h c).1, Cert.ReferenceIdeal.Read.val_main_v21_eq, Cert.ReferenceIdeal.RefValue.reference_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
